-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16x1024 .f32) (main_arg5 : FVec F S1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S1024x16 .f32) (main_arg2 : FVec F S16 .f32) (main_arg3 : FVec F S16 .f32) (main_arg4 : FVec F S16x1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S32768x1024 : Shape := ⟨2, ![32768, 1024]⟩
abbrev S1024x1024 : Shape := ⟨2, ![1024, 1024]⟩
abbrev S1x16 : Shape := ⟨2, ![1, 16]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S16, .f32⟩
  | .local _ .vmem, ⟨4, _⟩ => ⟨S16, .f32⟩
  | .local _ .vmem, ⟨5, _⟩ => ⟨S16x1024, .f32⟩
  | .local _ .vmem, ⟨6, _⟩ => ⟨S1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  inb_S16x1024_S16x1024_0_0 : ∀ a, (![0, 0] : Fin 2 → Nat) a + S16x1024.size a ≤ S16x1024.size a
  h_S16x1024 : 0 < S16x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S32768x1024_S8x4096x1024 : S32768x1024.ShapeCasts S8x4096x1024
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1024x16.size a
  hwx0_1 : ∀ i : grid0.Coords, EltTy.bits .f32 = 32 ∨ (Rect.block (s := S1024x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .f32 = 32 ∨ (Rect.block (s := S16x1024) S16x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S8x4096x16 : Shape := ⟨3, ![8, 4096, 16]⟩
abbrev S1x1x16 : Shape := ⟨3, ![1, 1, 16]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S1024, .f32⟩
  | .hbm, ⟨6, _⟩ => ⟨S8x4096x16, .f32⟩
  | .hbm, ⟨7, _⟩ => ⟨S1x1x16, .f32⟩
  | .hbm, ⟨8, _⟩ => ⟨S8x4096x16, .f32⟩
  | .hbm, ⟨9, _⟩ => ⟨S8x4096x16, .f32⟩
  | .hbm, ⟨10, _⟩ => ⟨S_, .f32⟩
  | .hbm, ⟨11, _⟩ => ⟨S8x4096x16, .f32⟩
  | .hbm, ⟨12, _⟩ => ⟨S8x4096x16, .f32⟩
  | .hbm, ⟨13, _⟩ => ⟨S1x1x16, .f32⟩
  | .hbm, ⟨14, _⟩ => ⟨S8x4096x16, .f32⟩
  | .hbm, ⟨15, _⟩ => ⟨S8x4096x16, .f32⟩
  | .hbm, ⟨16, _⟩ => ⟨S8x4096x16, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S8x4096x16_0_1_2 : S1x1x16.BroadcastsInDim S8x4096x16 (![0, 1, 2] : Fin 3 → Fin S8x4096x16.rank)
  bcast_S_S8x4096x16 : S_.BroadcastsInDim S8x4096x16 (![] : Fin 0 → Fin S8x4096x16.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x16_S8x4096x16_2_0_01_1_n_n_wf : DotDims.WF S8x4096x1024 S1024x16 S8x4096x16 [2] [0] [0, 1] [1] [] []
  dot_S8x4096x16_S16x1024_S8x4096x1024_2_0_01_1_n_n_wf : DotDims.WF S8x4096x16 S16x1024 S8x4096x1024 [2] [0] [0, 1] [1] [] []

variable [Facts₀]

def dot_S8x4096x1024_S1024x16_S8x4096x16_2_0_01_1_n_n : DotDims S8x4096x1024 S1024x16 S8x4096x16 where
  lhsContracting := [2]
  rhsContracting := [0]
  lhsNonContracting := [0, 1]
  rhsNonContracting := [1]
  lhsBatch := []
  rhsBatch := []
  wf := dot_S8x4096x1024_S1024x16_S8x4096x16_2_0_01_1_n_n_wf
def dot_S8x4096x16_S16x1024_S8x4096x1024_2_0_01_1_n_n : DotDims S8x4096x16 S16x1024 S8x4096x1024 where
  lhsContracting := [2]
  rhsContracting := [0]
  lhsNonContracting := [0, 1]
  rhsNonContracting := [1]
  lhsBatch := []
  rhsBatch := []
  wf := dot_S8x4096x16_S16x1024_S8x4096x1024_2_0_01_1_n_n_wf

class Facts : Prop extends Facts₀ where

variable [Facts]
-- ==== Proof.Spec.lean ====
/-
  The function both programs compute, on the extended reals.

  For one row `r` of the input (1024 entries) the hidden layer has sixteen units: unit `q` takes the inner product of the
  row with column `q` of `W1`, adds `b1 q`, clips at zero from below, adds the phase `θ q` and takes the cosine. Output
  entry `d` of the row is the inner product of the sixteen hidden values with column `d` of `W2`, plus `b2 d`.

  The input comes in two layouts: `[32768, 1024]` (rows) and `[8, 4096, 1024]` (batches of rows). Row `4096·b + s` of the
  first is row `(b, s)` of the second, and the only law needed between the two programs is that relaying the array out
  this way commutes with the row-wise function (`batched_eq_rows`). Sums are written once, over `Fin 1024` and `Fin 16`
  in that order on both sides, so no rearrangement of a sum (and hence no finiteness) is used.
-/
import Idealize.ShloMosaic.PureOps.Ideal
import Idealize.ShloMosaic.Lib.ValueIdx
import Idealize.ShloMosaic.Lib.Pipeline.Value

noncomputable section

open scoped BigOperators

namespace Cert.Ffn

open Idealize.ShloMosaic Idealize.ShloMosaic.ValueIdx

/-- The shapes, literally. -/
abbrev Rows : Shape := ⟨2, ![32768, 1024]⟩
abbrev Batched : Shape := ⟨3, ![8, 4096, 1024]⟩
abbrev In1 : Shape := ⟨2, ![1024, 16]⟩
abbrev Hid : Shape := ⟨1, ![16]⟩
abbrev In2 : Shape := ⟨2, ![16, 1024]⟩
abbrev Out1 : Shape := ⟨1, ![1024]⟩

/-- Hidden unit `q` of a row: `cos (max (row · W1[:, q] + b1 q, 0) + θ q)`. The zero is the float word `+0.0`, kept as a
    word: it is the same word in both programs. -/
def hidden (row : Fin 1024 → EReal) (W1 : In1.Idx → EReal) (b1 th : Hid.Idx → EReal) (q : Fin 16) : EReal :=
  Ideal.cos (max ((∑ k : Fin 1024, row k * W1 (ix2 k q)) + b1 (ix1 q)) (Ideal.ofBits .f32 0x00000000#32) + th (ix1 q))

/-- Output entry `d` of a row: `hidden · W2[:, d] + b2 d`. -/
def entry (row : Fin 1024 → EReal) (W1 : In1.Idx → EReal) (b1 th : Hid.Idx → EReal) (W2 : In2.Idx → EReal)
    (b2 : Out1.Idx → EReal) (d : Fin 1024) : EReal :=
  (∑ q : Fin 16, hidden row W1 b1 th q * W2 (ix2 q d)) + b2 (ix1 d)

/-- The result over the `[32768, 1024]` layout. -/
def rows (x : Rows.Idx → EReal) (W1 : In1.Idx → EReal) (b1 th : Hid.Idx → EReal) (W2 : In2.Idx → EReal)
    (b2 : Out1.Idx → EReal) : Rows.Idx → EReal :=
  fun j => entry (fun k => x (ix2 (j 0) k)) W1 b1 th W2 b2 (j 1)

/-- The result over the `[8, 4096, 1024]` layout. -/
def batched (x : Batched.Idx → EReal) (W1 : In1.Idx → EReal) (b1 th : Hid.Idx → EReal) (W2 : In2.Idx → EReal)
    (b2 : Out1.Idx → EReal) : Batched.Idx → EReal :=
  fun i => entry (fun k => x (ix3 (i 0) (i 1) k)) W1 b1 th W2 b2 (i 2)

/-- Row `(b, s)` of the batched layout is row `4096·b + s` of the row layout. -/
def rowOf (b : Fin 8) (s : Fin 4096) : Fin 32768 := ⟨b.val * 4096 + s.val, by have := b.isLt; have := s.isLt; omega⟩

/-- Relaying the batched array out as rows reads, at `(4096·b + s, k)`, the entry `(b, s, k)`: same row-major position. -/
theorem toRows_apply (x : Batched.Idx → EReal) (h : Batched.ShapeCasts Rows) (b : Fin 8) (s : Fin 4096) (k : Fin 1024) :
    shapeCast Rows x h (ix2 (rowOf b s) k) = x (ix3 b s k) :=
  shapeCast_apply x h _ _ (by
    rw [Shape.rowMajor_val_three, Shape.rowMajor_val_two]
    rfl)

/-- Relaying a row array out in batches reads, at `(b, s, d)`, the entry `(4096·b + s, d)`. -/
theorem toBatched_apply (y : Rows.Idx → EReal) (h : Rows.ShapeCasts Batched) (b : Fin 8) (s : Fin 4096) (d : Fin 1024) :
    shapeCast Batched y h (ix3 b s d) = y (ix2 (rowOf b s) d) :=
  shapeCast_apply y h _ _ (by
    rw [Shape.rowMajor_val_three, Shape.rowMajor_val_two]
    rfl)

/-- THE LAW: lay the input out as rows, apply the row-wise function, lay the result out in batches again — this is the
    batched function. Entry `(b, s, d)` of either depends on row `(b, s)` of the input only. -/
theorem batched_eq_rows (x : Batched.Idx → EReal) (W1 : In1.Idx → EReal) (b1 th : Hid.Idx → EReal) (W2 : In2.Idx → EReal)
    (b2 : Out1.Idx → EReal) (h : Batched.ShapeCasts Rows) (h' : Rows.ShapeCasts Batched) :
    shapeCast Batched (rows (shapeCast Rows x h) W1 b1 th W2 b2) h' = batched x W1 b1 th W2 b2 := by
  funext i
  obtain ⟨b, s, d, rfl⟩ : ∃ (b : Fin 8) (s : Fin 4096) (d : Fin 1024), i = ix3 b s d := ⟨i 0, i 1, i 2, eq_ix3 i⟩
  rw [toBatched_apply]
  show entry (fun k => shapeCast Rows x h (ix2 (rowOf b s) k)) W1 b1 th W2 b2 d = entry (fun k => x (ix3 b s k)) W1 b1 th W2 b2 d
  simp only [toRows_apply]

end Cert.Ffn

end
-- ==== Proof.RefIsSpec.lean ====
/-
  The reference computes the batched function.

  Read one operation at a time, entry `(b, s, d)` of the reference's result is
  `(∑ q, cos (max ((∑ k, x (b, s, k) · W1 (k, q)) + b1 q, 0) + θ q) · W2 (q, d)) + b2 d`:
  the first contraction runs over the last axis of `x`, the biases are broadcast along the leading axes (so at any index
  they are read at its last coordinate), the clip is a maximum with the broadcast zero word, and the second contraction
  runs over the sixteen hidden units. That is `Cert.Ffn.batched`, term for term; all that has to be said is which entry of
  which operand each composed index map names.
-/
import proofs.«103400_j65481071409583_2_alg».proof.Proof.Gen.ReferenceIdeal.Read
import proofs.«103400_j65481071409583_2_alg».proof.Proof.Spec

noncomputable section

open scoped BigOperators

namespace Cert.Ffn.Ref

open Cert.ReferenceIdeal Cert.ReferenceIdeal.Read Idealize.ShloMosaic Idealize.ShloMosaic.ValueIdx

/-! ## Which entry each composed index map names -/

/-- The second contraction's left operand at `(b, s, d)`, term `q`: hidden unit `q` of row `(b, s)`. -/
theorem lidx9 (b : Fin 8) (s : Fin 4096) (d : Fin 1024) (q : Fin 16) : lidx_main_v9 (ix3 b s d) q = ix3 b s q :=
  funext fun a => Fin.ext (by match a with | ⟨0, _⟩ => rfl | ⟨1, _⟩ => rfl | ⟨2, _⟩ => rfl)
/-- Its right operand: `W2 (q, d)`. -/
theorem ridx9 (b : Fin 8) (s : Fin 4096) (d : Fin 1024) (q : Fin 16) : ridx_main_v9 (ix3 b s d) q = ix2 q d :=
  funext fun a => Fin.ext (by match a with | ⟨0, _⟩ => rfl | ⟨1, _⟩ => rfl)
/-- The first contraction's left operand at `(b, s, q)`, term `k`: `x (b, s, k)`. -/
theorem lidx0 (b : Fin 8) (s : Fin 4096) (q : Fin 16) (k : Fin 1024) : lidx_main_v0 (ix3 b s q) k = ix3 b s k :=
  funext fun a => Fin.ext (by match a with | ⟨0, _⟩ => rfl | ⟨1, _⟩ => rfl | ⟨2, _⟩ => rfl)
/-- Its right operand: `W1 (k, q)`. -/
theorem ridx0 (b : Fin 8) (s : Fin 4096) (q : Fin 16) (k : Fin 1024) : ridx_main_v0 (ix3 b s q) k = ix2 k q :=
  funext fun a => Fin.ext (by match a with | ⟨0, _⟩ => rfl | ⟨1, _⟩ => rfl)
/-- A bias of the hidden layer broadcast along the two leading axes is read at the last coordinate. -/
theorem idxB1 (b : Fin 8) (s : Fin 4096) (q : Fin 16) : idx_main_v1 (idx_main_v2 (ix3 b s q)) = ix1 q :=
  funext fun a => Fin.ext (by match a with | ⟨0, _⟩ => rfl)
theorem idxTh (b : Fin 8) (s : Fin 4096) (q : Fin 16) : idx_main_v5 (idx_main_v6 (ix3 b s q)) = ix1 q :=
  funext fun a => Fin.ext (by match a with | ⟨0, _⟩ => rfl)
/-- So is the output bias. -/
theorem idxB2 (b : Fin 8) (s : Fin 4096) (d : Fin 1024) : idx_main_v10 (idx_main_v11 (ix3 b s d)) = ix1 d :=
  funext fun a => Fin.ext (by match a with | ⟨0, _⟩ => rfl)

/-! ## The hidden layer, then the result -/

/-- Hidden unit `q` of row `(b, s)` as the reference computes it. -/
theorem hidden_apply (x0 : S8x4096x1024.Idx → EReal) (x1 : S1024x16.Idx → EReal) (x2 x3 : S16.Idx → EReal)
    (b : Fin 8) (s : Fin 4096) (q : Fin 16) :
    val_main_v8 (F := Ideal) x0 x1 x2 x3 (ix3 b s q) = Cert.Ffn.hidden (fun k => x0 (ix3 b s k)) x1 x2 x3 q := by
  rw [val_main_v8_apply, val_main_v7_apply, val_main_v4_apply, val_main_v3_apply, val_main_v0_apply, val_main_v2_apply,
    val_main_v1_apply, val_main_v6_apply, val_main_v5_apply, val_main_call0_v0_apply, val_main_call0_cst_apply]
  simp only [lidx0, ridx0, idxB1, idxTh, Ideal.addf_def, Ideal.maximumf_def, Ideal.hostUnary_cos_def, Ideal.ofBits_def]
  rfl

/-- The reference's result is the batched function of its arguments. -/
theorem result_eq (x0 : S8x4096x1024.Idx → EReal) (x1 : S1024x16.Idx → EReal) (x2 x3 : S16.Idx → EReal)
    (x4 : S16x1024.Idx → EReal) (x5 : S1024.Idx → EReal) :
    val_main_v12 (F := Ideal) x0 x1 x2 x3 x4 x5 = Cert.Ffn.batched x0 x1 x2 x3 x4 x5 := by
  funext i
  obtain ⟨b, s, d, rfl⟩ : ∃ (b : Fin 8) (s : Fin 4096) (d : Fin 1024), i = ix3 b s d := ⟨i 0, i 1, i 2, eq_ix3 i⟩
  rw [val_main_v12_apply, val_main_v9_apply, val_main_v11_apply, val_main_v10_apply]
  simp only [lidx9, ridx9, idxB2, hidden_apply, Ideal.addf_def]
  rfl

end Cert.Ffn.Ref

end
-- ==== Proof.BodyValue.lean ====
/-
  What the kernel body computes from the blocks it loads, entry by entry.

  The body holds a block of 1024 rows of the input and all of `W1`, `b1`, `θ`, `W2`, `b2`. The value it stores is, at row
  `p` and column `d` of the block, the output entry `d` of row `p` (`Cert.Ffn.entry`): the first matrix product into a zero
  accumulator is the plain sum over the 1024 columns of the row, the second the plain sum over the sixteen hidden units;
  the narrowing of the operands before each product is the identity on the extended reals; each bias, a vector laid out
  as one row and repeated down the rows, is read at the column.
-/
import proofs.«103400_j65481071409583_2_alg».proof.Proof.Gen.KernelIdeal.Skeleton
import proofs.«103400_j65481071409583_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Ffn.Body

open Cert.KernelIdeal Cert.KernelIdeal.Gen Idealize.ShloMosaic Idealize.ShloMosaic.ValueIdx

/-- The cosine of a vector is the cosine of each entry. -/
theorem cos_apply {s : Shape} {φ : FTy} (a : FVec Ideal s φ) (i : s.Idx) : cos a i = Ideal.cos (a i) := rfl

/-! ## The first product: a row of the block against a column of `W1` -/

theorem lhs1_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem lhs1_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
theorem rhs1_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
theorem rhs1_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- Entry `(p, q)` of the first product into the zero accumulator: `∑ k, a (p, k) · w (k, q)`. -/
theorem prod1_apply (a : FVec Ideal S1024x1024 .bf16) (w : FVec Ideal S1024x16 .bf16) (p : Fin 1024) (q : Fin 16) :
    matmul dot_S1024x1024_S1024x16_S1024x16_1_0_0_1_n_n none a w (constant S1024x16 .f32 0x00000000#32) (ix2 p q)
      = ∑ k : Fin 1024, a (ix2 p k) * w (ix2 k q) := by
  show FloatOps.matmul dot_S1024x1024_S1024x16_S1024x16_1_0_0_1_n_n none a w (constant S1024x16 .f32 0x00000000#32) (ix2 p q) = _
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p q) ((contrEquiv1 dot_S1024x1024_S1024x16_S1024x16_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1024x1024_S1024x16_S1024x16_1_0_0_1_n_n.rhsIdx (ix2 p q) ((contrEquiv1 dot_S1024x1024_S1024x16_S1024x16_1_0_0_1_n_n 1024 rfl rfl).symm k) = ix2 k q := funext fun a => Fin.ext (by
    match a with
    | ⟨0, _⟩ => exact (rhs1_0 _ _).trans hk
    | ⟨1, _⟩ => exact rhs1_1 _ _)
  rw [el, er]

/-! ## The second product: the hidden values of a row against a column of `W2` -/

theorem lhs2_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs2_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs2_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs2_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Entry `(p, d)` of the second product into the zero accumulator: `∑ q, z (p, q) · w (q, d)`. -/
theorem prod2_apply (z : FVec Ideal S1024x16 .bf16) (w : FVec Ideal S16x1024 .bf16) (p d : Fin 1024) :
    matmul dot_S1024x16_S16x1024_S1024x1024_1_0_0_1_n_n none z w (constant S1024x1024 .f32 0x00000000#32) (ix2 p d)
      = ∑ q : Fin 16, z (ix2 p q) * w (ix2 q d) := by
  show FloatOps.matmul dot_S1024x16_S16x1024_S1024x1024_1_0_0_1_n_n none z w (constant S1024x1024 .f32 0x00000000#32) (ix2 p d) = _
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p d) ((contrEquiv1 dot_S1024x16_S16x1024_S1024x1024_1_0_0_1_n_n 16 rfl rfl).symm k) = ix2 p k := funext fun a => Fin.ext (by
    match a with
    | ⟨0, _⟩ => exact lhs2_0 _ _
    | ⟨1, _⟩ => exact (lhs2_1 _ _).trans hk)
  have er : dot_S1024x16_S16x1024_S1024x1024_1_0_0_1_n_n.rhsIdx (ix2 p d) ((contrEquiv1 dot_S1024x16_S16x1024_S1024x1024_1_0_0_1_n_n 16 rfl rfl).symm k) = ix2 k d := funext fun a => Fin.ext (by
    match a with
    | ⟨0, _⟩ => exact (rhs2_0 _ _).trans hk
    | ⟨1, _⟩ => exact rhs2_1 _ _)
  rw [el, er]

/-! ## The biases: one row, repeated down the rows, read at the column -/

theorem biasHid_apply (v : FVec Ideal S16 .f32) (p : Fin 1024) (q : Fin 16) :
    broadcastTo S1024x16 (shapeCast S1x16 v shapeCasts_S16_S1x16) broadcasts_S1x16_S1024x16 (ix2 p q) = v (ix1 q) := by
  rw [broadcastTo_1b_ab_apply, shapeCast_a_1a_apply]

theorem biasOut_apply (v : FVec Ideal S1024 .f32) (p d : Fin 1024) :
    broadcastTo S1024x1024 (shapeCast S1x1024 v shapeCasts_S1024_S1x1024) broadcasts_S1x1024_S1024x1024 (ix2 p d) = v (ix1 d) := by
  rw [broadcastTo_1b_ab_apply, shapeCast_a_1a_apply]

/-! ## The stored value -/

/-- Row `p`, column `d` of what the body stores is output entry `d` of row `p` of the loaded block. -/
theorem stored_apply (v0 : Vec Ideal S1024x1024 .f32) (v3 : Vec Ideal S1024x16 .f32) (v6 v12 : Vec Ideal S16 .f32)
    (v18 : Vec Ideal S16x1024 .f32) (v21 : Vec Ideal S1024 .f32) (p d : Fin 1024) :
    k0_pay1 (F := Ideal) v0 v3 v6 v12 v18 v21 (ix2 p d) = Cert.Ffn.entry (fun k => v0 (ix2 p k)) v3 v6 v12 v18 v21 d := by
  unfold k0_pay1
  simp only [addf_apply, maximumf_apply, cos_apply, truncf_apply, prod2_apply, prod1_apply, biasHid_apply, biasOut_apply,
    broadcast_apply, shapeCast_self]
  rfl

/-- The same against a row array `X`: if row `p` of the loaded block is row `i 0` of `X` and the column `d` is `i 1`, the
    stored value at `(p, d)` is the row-wise function of `X` at `i`. -/
theorem stored_eq_rows (x0 : Vec Ideal S1024x1024 .f32) (x1 : Vec Ideal S1024x16 .f32) (x2 x3 : Vec Ideal S16 .f32)
    (x4 : Vec Ideal S16x1024 .f32) (x5 : Vec Ideal S1024 .f32) (X : S32768x1024.Idx → EReal)
    (y : S1024x1024.Idx) (i : S32768x1024.Idx) (p d : Fin 1024) (hy : y = ix2 p d)
    (hrow : ∀ k : Fin 1024, x0 (ix2 p k) = X (ix2 (i 0) k)) (hcol : d.val = (i 1).val) :
    k0_pay1 (F := Ideal) x0 x1 x2 x3 x4 x5 y = Cert.Ffn.rows X x1 x2 x3 x4 x5 i := by
  subst hy
  have hd : d = i 1 := Fin.ext hcol
  rw [stored_apply]
  unfold Cert.Ffn.rows
  rw [show (fun k => x0 (ix2 p k)) = fun k => X (ix2 (i 0) k) from funext hrow, hd]

end Cert.Ffn.Body

end
-- ==== Proof.RegionValue.lean ====
/-
  The array the kernel region leaves, as one function of the arrays it finds.

  The grid has 32 points. At point `t` the input window holds rows `1024·t … 1024·t + 1023` of the row-layout input, every
  parameter window holds its whole array (their block index is zero at every point), and the output window's block is rows
  `1024·t … 1024·t + 1023` of the result. So what point `t` writes back is block `t` of the row-wise function
  (`Cert.Ffn.rows`) of the arrays the region found: entry `(p, d)` of the stored block is output entry `d` of row
  `1024·t + p`. Row `r` of the result lies in the block of point `r / 1024`, so the 32 blocks cover the array, and the array
  after the region is that function.
-/
import proofs.«103400_j65481071409583_2_alg».proof.Proof.Gen.KernelIdeal.Frame
import proofs.«103400_j65481071409583_2_alg».proof.Proof.BodyValue
import Idealize.ShloMosaic.Lib.Pipeline.Value

noncomputable section

namespace Cert.Ffn.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The block indices, decided over the 32 points: the input and the output window are at block `(t, 0)`, every parameter
    window at block zero. -/
theorem idx_facts : ∀ t : Fin cfg0.N,
    win0_0.index t (0 : Fin 2) = win0_6.index t (0 : Fin 2) ∧ win0_0.index t (1 : Fin 2) = 0
    ∧ win0_6.index t (1 : Fin 2) = 0 ∧ win0_6.index t (0 : Fin 2) = t.val
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- The result array over the row layout: the row-wise function of the arrays as the region finds them. -/
abbrev arr (c : Dev nD) : S32768x1024.Idx → EReal :=
  Cert.Ffn.rows (V m c main_v0) (V m c main_arg1) (V m c main_arg2) (V m c main_arg3) (V m c main_arg4) (V m c main_arg5)

/-! ## Each parameter window's block is its whole array -/

theorem blockW1 (c : Dev nD) (t : Fin cfg0.N) : (iblk m c 1 t : S1024x16.Idx → EReal) = V m c main_arg1 := by
  obtain ⟨-, -, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 16 + 1 * (y 1).val = (y 1).val; omega

theorem blockB1 (c : Dev nD) (t : Fin cfg0.N) : (iblk m c 2 t : S16.Idx → EReal) = V m c main_arg2 := by
  obtain ⟨-, -, -, -, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 16 + 1 * (y 0).val = (y 0).val; omega

theorem blockTh (c : Dev nD) (t : Fin cfg0.N) : (iblk m c 3 t : S16.Idx → EReal) = V m c main_arg3 := by
  obtain ⟨-, -, -, -, -, -, -, e0, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 1) * 16 + 1 * (y 0).val = (y 0).val; omega

theorem blockW2 (c : Dev nD) (t : Fin cfg0.N) : (iblk m c 4 t : S16x1024.Idx → EReal) = V m c main_arg4 := by
  obtain ⟨-, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 16 + 1 * (y 0).val = (y 0).val; omega
  | ⟨1, _⟩ => show win0_4.index t (1 : Fin 2) * 1024 + 1 * (y 1).val = (y 1).val; omega

theorem blockB2 (c : Dev nD) (t : Fin cfg0.N) : (iblk m c 5 t : S1024.Idx → EReal) = V m c main_arg5 := by
  obtain ⟨-, -, -, -, -, -, -, -, -, -, e0⟩ := idx_facts t
  funext y
  show V m c main_arg5 (((cfg0.win 5).blk t).view.emb y) = V m c main_arg5 y
  refine congrArg _ (funext fun a => Fin.ext ?_)
  match a with
  | ⟨0, _⟩ => show win0_5.index t (0 : Fin 1) * 1024 + 1 * (y 0).val = (y 0).val; omega

/-! ## What a point writes back -/

/-- Point `t` writes back block `t` of the result array. -/
theorem flushed_eq (c : Dev nD) (t : Fin cfg0.N) :
    (dats m 0 c).flushed 6 t = ((cfg0.win 6).blk t).view.read (Elt Ideal) (arr m c) := by
  show (cfg0.win 6).cut (grid0.coords t) ((dats m 0 c).after 6 t) = _
  rw [after0_6]
  unfold out0_6
  rw [View.canon_unit_zero zero2]
  simp only [View.ld_unit_zero (S := S1024x1024) zero2, View.ld_unit_zero (S := S1024x16) zero2, View.ld_unit_zero (S := S16) zero1,
    View.ld_unit_zero (S := S16x1024) zero2, View.ld_unit_zero (S := S1024) zero1]
  rw [blockW1, blockB1, blockTh, blockW2, blockB2]
  obtain ⟨e0, e1, e2, -⟩ := idx_facts t
  funext j
  show k0_pay1 (F := Ideal) (iblk m c 0 t) (V m c main_arg1) (V m c main_arg2) (V m c main_arg3) (V m c main_arg4) (V m c main_arg5) j
    = arr m c (((cfg0.win 6).blk t).view.emb j)
  refine Cert.Ffn.Body.stored_eq_rows (iblk m c 0 t) (V m c main_arg1) (V m c main_arg2) (V m c main_arg3) (V m c main_arg4)
    (V m c main_arg5) (V m c main_v0) j (((cfg0.win 6).blk t).view.emb j) (j 0) (j 1) (eq_ix2 j) (fun k => ?_) ?_
  · show V m c main_v0 (((cfg0.win 0).blk t).view.emb (ix2 (j 0) k)) = V m c main_v0 (ix2 ((((cfg0.win 6).blk t).view.emb j) 0) k)
    refine congrArg _ (funext fun a => Fin.ext ?_)
    match a with
    | ⟨0, _⟩ => show win0_0.index t (0 : Fin 2) * 1024 + 1 * (j 0).val = win0_6.index t (0 : Fin 2) * 1024 + 1 * (j 0).val; omega
    | ⟨1, _⟩ => show win0_0.index t (1 : Fin 2) * 1024 + 1 * k.val = k.val; omega
  · show (j 1).val = win0_6.index t (1 : Fin 2) * 1024 + 1 * (j 1).val
    omega

/-! ## The blocks cover the array -/

/-- An index is in point `t`'s block iff each coordinate is in the block's range on its axis. -/
theorem mem_blk (t : Fin cfg0.N) (i : S32768x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v1).slice (win0_6.rect t)).set ↔ _
  rw [View.set_slice_whole, Rect.mem_set_unit]
  exact Iff.rfl

/-- Row `r` is in the block of point `r / 1024`. -/
theorem cover (i : S32768x1024.Idx) : ∃ t : Fin cfg0.N, (cfg0.win 6).flush t = true ∧ i ∈ ((cfg0.win 6).blk t).view.set := by
  have hN : cfg0.N = 32 := N_0
  have hi0 : (i 0).val < 32768 := (i 0).isLt
  have hi1 : (i 1).val < 1024 := (i 1).isLt
  obtain ⟨t, ht⟩ : ∃ t : Fin cfg0.N, t.val = (i 0).val / 1024 := ⟨⟨(i 0).val / 1024, by rw [hN]; omega⟩, rfl⟩
  obtain ⟨-, -, ec, er, -⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1024 ≤ (i 1).val ∧ (i 1).val < win0_6.index t (1 : Fin 2) * 1024 + 1024
    omega

/-- The result array after the region is the row-wise function of the arrays the region found. -/
theorem final (c : Dev nD) : (dats m 0 c).arrAt 6 cfg0.N = arr m c :=
  (dats m 0 c).arrAt_eq_of_cover 6 (arr m c) (fun t _ => flushed_eq m c t) cover

end Cert.Ffn.Region

end
-- ==== Proof.KernelValue.lean ====
/-
  The kernel program's result, as the batched function of its arguments.

  The program is three steps: lay the batched input out as rows, run the region, lay the region's array out in batches.
  The region's array is the row-wise function of the arrays it finds (`Region.final`); the first of these is the
  re-laid input, the others are the arguments themselves, untouched by the one host line before the region. Re-laying the
  input as rows, applying the row-wise function and re-laying the result in batches is the batched function
  (`Cert.Ffn.batched_eq_rows`).
-/
import proofs.«103400_j65481071409583_2_alg».proof.Proof.RegionValue
import Idealize.ShloMosaic.Lib.StableHlo.Run

noncomputable section

namespace Cert.Ffn.Kernel

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The input as the region finds it: the batched input laid out as rows. -/
theorem input_rows (c : Dev nD) : (V m c main_v0 : S32768x1024.Idx → EReal)
    = shapeCast S32768x1024 (m ((c : Thread nD τ).loc main_arg0) : S8x4096x1024.Idx → EReal) shapeCasts_S8x4096x1024_S32768x1024 := by
  show StableHlo.after hostOps0 (fun b => m (c, b)) (Proc.devRef .tc main_v0) = _
  after_results
  rfl

/-- The batched function of the arguments, on core `c`. -/
abbrev value (c : Dev nD) : S8x4096x1024.Idx → EReal :=
  Cert.Ffn.batched (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The program's result buffer after the host line that follows the region. -/
theorem result_eq (c : Dev nD) :
    (Pipeline.afterTail₀ cfgs (dats m) 0 (V0 m) [hostOps1] c main_v2 : S8x4096x1024.Idx → EReal) = value m c := by
  unfold Pipeline.afterTail₀
  show StableHlo.after hostOps1 _ (Proc.devRef .tc main_v2) = _
  after_results
  rw [Pipeline.withArrays_arr spec0 launch0.win.arr_inj c _ _ 6, Region.final m c]
  unfold Region.arr
  rw [input_rows m c, V_main_arg1 m c, V_main_arg2 m c, V_main_arg3 m c, V_main_arg4 m c, V_main_arg5 m c]
  exact Cert.Ffn.batched_eq_rows _ _ _ _ _ _ _ _

/-- The run of the kernel program, read: the result at the batched function of the arguments, the arguments unchanged. -/
theorem run : θ_run defs (onTc (τ := τ) (main (F := Ideal))) ⟨m, fun _ => 0, ρ⟩ fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v2 (Pipeline.mem_restRefs_of main_v2 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.Ffn.Kernel

end
-- ==== Proof.lean ====
/-
  A two-layer feed-forward block with a cosine gate, as a tiled kernel against the same block written with two einsums.

  For every row `r` of the input (1024 entries) the result row is
    `out r d = (∑ q, cos (max ((∑ k, r k · W1 (k, q)) + b1 q, 0) + θ q) · W2 (q, d)) + b2 d`
  with sixteen hidden units `q`. The kernel lays the `[8, 4096, 1024]` input out as 32768 rows, computes 1024 rows per grid
  point (32 points) with two matrix products whose operands are narrowed first, and lays the result out as
  `[8, 4096, 1024]` again; the reference contracts the last axis of the batched input directly.

  On the extended reals the narrowing is the identity, a matrix product into a zero accumulator is the plain sum of
  products, and the kernel's and the host's cosine and maximum are the same functions. Both programs therefore compute
  the same sums in the same order, entry by entry; the one law between them is that re-laying an array out (batches as
  rows and back) commutes with a function that acts row by row (`Cert.Ffn.batched_eq_rows`). No rearrangement of a sum is
  needed, so the finiteness of the inputs is never used.

  The modules: `Spec` (the function, in both layouts, and the law), `RefIsSpec` (the reference's result is the function),
  `BodyValue` (an entry of what the kernel body stores), `RegionValue` (the array the 32 grid points leave),
  `KernelValue` (the kernel program's result and its run).
-/
import proofs.«103400_j65481071409583_2_alg».proof.Defs
import proofs.«103400_j65481071409583_2_alg».proof.Proof.Gen.Kernel
import proofs.«103400_j65481071409583_2_alg».proof.Proof.Gen.Kernel.Skeleton
import proofs.«103400_j65481071409583_2_alg».proof.Proof.Gen.Kernel.Launch
import proofs.«103400_j65481071409583_2_alg».proof.Proof.Gen.Kernel.Points
import proofs.«103400_j65481071409583_2_alg».proof.Proof.Gen.Kernel.Frame
import proofs.«103400_j65481071409583_2_alg».proof.Proof.Gen.KernelIdeal
import proofs.«103400_j65481071409583_2_alg».proof.Proof.Gen.KernelIdeal.Skeleton
import proofs.«103400_j65481071409583_2_alg».proof.Proof.Gen.KernelIdeal.Launch
import proofs.«103400_j65481071409583_2_alg».proof.Proof.Gen.KernelIdeal.Points
import proofs.«103400_j65481071409583_2_alg».proof.Proof.Gen.KernelIdeal.Frame
import proofs.«103400_j65481071409583_2_alg».proof.Proof.Gen.ReferenceIdeal
import proofs.«103400_j65481071409583_2_alg».proof.Proof.Gen.ReferenceIdeal.Run
import proofs.«103400_j65481071409583_2_alg».proof.Proof.Gen.ReferenceIdeal.Read
import proofs.«103400_j65481071409583_2_alg».proof.Proof.Gen.Pre_finite_inputs
import proofs.«103400_j65481071409583_2_alg».proof.Proof.RefIsSpec
import proofs.«103400_j65481071409583_2_alg».proof.Proof.KernelValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- On the extended reals, from memories that agree on the six arguments, both programs end with the batched function of
    the arguments in their result buffers: the kernel by `Cert.Ffn.Kernel.run`, the reference by its run and
    `Cert.Ffn.Ref.result_eq`. -/
theorem algebraic : Cert.algebraic_KernelIdeal_ReferenceIdeal := by
  intro m ρ m' ρ' _ hagree
  refine ⟨fun c => Cert.Ffn.Kernel.value m c, Cert.Ffn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v12_eq, Cert.Ffn.Ref.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
